-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : FVec F S11008x4096 .f32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S86x128x32x128 : Shape := ⟨4, ![86, 128, 32, 128]⟩
abbrev S86x32 : Shape := ⟨2, ![86, 32]⟩
abbrev S86x1x32x1 : Shape := ⟨4, ![86, 1, 32, 1]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 67
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .i1⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S_, .f32⟩
  | .hbm, ⟨16, _⟩ => ⟨S_, .f32⟩
  | .hbm, ⟨17, _⟩ => ⟨S8192x32x1, .f32⟩
  | .hbm, ⟨18, _⟩ => ⟨S8192x32x1, .f32⟩
  | .hbm, ⟨19, _⟩ => ⟨S8192x32x128, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32x128, .f32⟩
  | .hbm, ⟨29, _⟩ => ⟨S8192x32x128, .f32⟩
  | .hbm, ⟨30, _⟩ => ⟨S8192x32x128, .f32⟩
  | .hbm, ⟨31, _⟩ => ⟨S8192x32x128, .f32⟩
  | .hbm, ⟨32, _⟩ => ⟨S8192x4096, .f32⟩
  | .hbm, ⟨33, _⟩ => ⟨S8192x4096, .bf16⟩
  | .hbm, ⟨34, _⟩ => ⟨S86x128x32x128, .f32⟩
  | .hbm, ⟨35, _⟩ => ⟨S86x128x32x128, .f32⟩
  | .hbm, ⟨36, _⟩ => ⟨S_, .f32⟩
  | .hbm, ⟨37, _⟩ => ⟨S86x32, .f32⟩
  | .hbm, ⟨38, _⟩ => ⟨S86x1x32x1, .f32⟩
  | .hbm, ⟨39, _⟩ => ⟨S_, .f32⟩
  | .hbm, ⟨40, _⟩ => ⟨S86x1x32x1, .f32⟩
  | .hbm, ⟨41, _⟩ => ⟨S86x1x32x1, .i1⟩
  | .hbm, ⟨42, _⟩ => ⟨S_, .f32⟩
  | .hbm, ⟨43, _⟩ => ⟨S86x1x32x1, .f32⟩
  | .hbm, ⟨44, _⟩ => ⟨S86x1x32x1, .f32⟩
  | .hbm, ⟨45, _⟩ => ⟨S_, .f32⟩
  | .hbm, ⟨46, _⟩ => ⟨S_, .f32⟩
  | .hbm, ⟨47, _⟩ => ⟨S86x1x32x1, .f32⟩
  | .hbm, ⟨48, _⟩ => ⟨S86x1x32x1, .f32⟩
  | .hbm, ⟨49, _⟩ => ⟨S86x128x32x128, .f32⟩
  | .hbm, ⟨50, _⟩ => ⟨S86x128x32x128, .f32⟩
  | .hbm, ⟨51, _⟩ => ⟨S86x128x32x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S86x128x32x128, .f32⟩
  | .hbm, ⟨56, _⟩ => ⟨S86x128x32x128, .f32⟩
  | .hbm, ⟨57, _⟩ => ⟨S_, .f32⟩
  | .hbm, ⟨58, _⟩ => ⟨S86x128x32x128, .f32⟩
  | .hbm, ⟨59, _⟩ => ⟨S86x128x32x128, .f32⟩
  | .hbm, ⟨60, _⟩ => ⟨S86x128x32x128, .f32⟩
  | .hbm, ⟨61, _⟩ => ⟨S86x128x32x128, .f32⟩
  | .hbm, ⟨62, _⟩ => ⟨S11008x4096, .f32⟩
  | .hbm, ⟨63, _⟩ => ⟨S11008x4096, .bf16⟩
  | .hbm, ⟨64, _⟩ => ⟨S1x11008, .f32⟩
  | .hbm, ⟨65, _⟩ => ⟨S8192x11008, .f32⟩
  | .hbm, ⟨66, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_cst_10 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  bitsLt_bf16_f32 : FTy.bits .bf16 < FTy.bits .f32
  shapeCasts_S11008x4096_S86x128x32x128 : S11008x4096.ShapeCasts S86x128x32x128
  reducesTo_S86x128x32x128_S86x32_d1_3 : S86x128x32x128.ReducesTo [1, 3] S86x32
  bcast_S86x32_S86x1x32x1_0_2 : S86x32.BroadcastsInDim S86x1x32x1 (![0, 2] : Fin 2 → Fin S86x1x32x1.rank)
  bcast_S_S86x1x32x1 : S_.BroadcastsInDim S86x1x32x1 (![] : Fin 0 → Fin S86x1x32x1.rank)
  bcast_S86x1x32x1_S86x128x32x128_0_1_2_3 : S86x1x32x1.BroadcastsInDim S86x128x32x128 (![0, 1, 2, 3] : Fin 4 → Fin S86x128x32x128.rank)
  bcast_S_S86x128x32x128 : S_.BroadcastsInDim S86x128x32x128 (![] : Fin 0 → Fin S86x128x32x128.rank)
  shapeCasts_S86x128x32x128_S11008x4096 : S86x128x32x128.ShapeCasts S11008x4096
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v17) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S86x128x32x128 : Shape := ⟨4, ![86, 128, 32, 128]⟩
abbrev S86x32 : Shape := ⟨2, ![86, 32]⟩
abbrev S86x1x32x1 : Shape := ⟨4, ![86, 1, 32, 1]⟩
abbrev S8192x11008 : Shape := ⟨2, ![8192, 11008]⟩
abbrev S1x11008 : Shape := ⟨2, ![1, 11008]⟩
abbrev S4x2048x11008 : Shape := ⟨3, ![4, 2048, 11008]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S8192x4096, .f32⟩
  | .hbm, ⟨4, _⟩ => ⟨S8192x32x128, .f32⟩
  | .hbm, ⟨5, _⟩ => ⟨S8192x32x128, .f32⟩
  | .hbm, ⟨6, _⟩ => ⟨S_, .f32⟩
  | .hbm, ⟨7, _⟩ => ⟨S8192x32, .f32⟩
  | .hbm, ⟨8, _⟩ => ⟨S8192x32x1, .f32⟩
  | .hbm, ⟨9, _⟩ => ⟨S_, .f32⟩
  | .hbm, ⟨10, _⟩ => ⟨S8192x32x1, .f32⟩
  | .hbm, ⟨11, _⟩ => ⟨S8192x32x1, .i1⟩
  | .hbm, ⟨12, _⟩ => ⟨S_, .f32⟩
  | .hbm, ⟨13, _⟩ => ⟨S8192x32x1, .f32⟩
  | .hbm, ⟨14, _⟩ => ⟨S8192x32x1, .f32⟩
  | .hbm, ⟨15, _⟩ => ⟨S_, .f32⟩
  | .hbm, ⟨16, _⟩ => ⟨S_, .f32⟩
  | .hbm, ⟨17, _⟩ => ⟨S8192x32x1, .f32⟩
  | .hbm, ⟨18, _⟩ => ⟨S8192x32x1, .f32⟩
  | .hbm, ⟨19, _⟩ => ⟨S8192x32x128, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x32x128, .f32⟩
  | .hbm, ⟨26, _⟩ => ⟨S8192x32x128, .f32⟩
  | .hbm, ⟨27, _⟩ => ⟨S_, .f32⟩
  | .hbm, ⟨28, _⟩ => ⟨S8192x32x128, .f32⟩
  | .hbm, ⟨29, _⟩ => ⟨S8192x32x128, .f32⟩
  | .hbm, ⟨30, _⟩ => ⟨S8192x32x128, .f32⟩
  | .hbm, ⟨31, _⟩ => ⟨S8192x32x128, .f32⟩
  | .hbm, ⟨32, _⟩ => ⟨S8192x4096, .f32⟩
  | .hbm, ⟨33, _⟩ => ⟨S86x128x32x128, .f32⟩
  | .hbm, ⟨34, _⟩ => ⟨S86x128x32x128, .f32⟩
  | .hbm, ⟨35, _⟩ => ⟨S_, .f32⟩
  | .hbm, ⟨36, _⟩ => ⟨S86x32, .f32⟩
  | .hbm, ⟨37, _⟩ => ⟨S86x1x32x1, .f32⟩
  | .hbm, ⟨38, _⟩ => ⟨S_, .f32⟩
  | .hbm, ⟨39, _⟩ => ⟨S86x1x32x1, .f32⟩
  | .hbm, ⟨40, _⟩ => ⟨S86x1x32x1, .i1⟩
  | .hbm, ⟨41, _⟩ => ⟨S_, .f32⟩
  | .hbm, ⟨42, _⟩ => ⟨S86x1x32x1, .f32⟩
  | .hbm, ⟨43, _⟩ => ⟨S86x1x32x1, .f32⟩
  | .hbm, ⟨44, _⟩ => ⟨S_, .f32⟩
  | .hbm, ⟨45, _⟩ => ⟨S_, .f32⟩
  | .hbm, ⟨46, _⟩ => ⟨S86x1x32x1, .f32⟩
  | .hbm, ⟨47, _⟩ => ⟨S86x1x32x1, .f32⟩
  | .hbm, ⟨48, _⟩ => ⟨S86x128x32x128, .f32⟩
  | .hbm, ⟨49, _⟩ => ⟨S86x128x32x128, .f32⟩
  | .hbm, ⟨50, _⟩ => ⟨S86x128x32x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S86x128x32x128, .f32⟩
  | .hbm, ⟨55, _⟩ => ⟨S86x128x32x128, .f32⟩
  | .hbm, ⟨56, _⟩ => ⟨S_, .f32⟩
  | .hbm, ⟨57, _⟩ => ⟨S86x128x32x128, .f32⟩
  | .hbm, ⟨58, _⟩ => ⟨S86x128x32x128, .f32⟩
  | .hbm, ⟨59, _⟩ => ⟨S86x128x32x128, .f32⟩
  | .hbm, ⟨60, _⟩ => ⟨S86x128x32x128, .f32⟩
  | .hbm, ⟨61, _⟩ => ⟨S11008x4096, .f32⟩
  | .hbm, ⟨62, _⟩ => ⟨S8192x11008, .f32⟩
  | .hbm, ⟨63, _⟩ => ⟨S1x11008, .f32⟩
  | .hbm, ⟨64, _⟩ => ⟨S8192x11008, .f32⟩
  | .hbm, ⟨65, _⟩ => ⟨S8192x11008, .f32⟩
  | .hbm, ⟨66, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  shapeCasts_S11008x4096_S86x128x32x128 : S11008x4096.ShapeCasts S86x128x32x128
  reducesTo_S86x128x32x128_S86x32_d1_3 : S86x128x32x128.ReducesTo [1, 3] S86x32
  bcast_S86x32_S86x1x32x1_0_2 : S86x32.BroadcastsInDim S86x1x32x1 (![0, 2] : Fin 2 → Fin S86x1x32x1.rank)
  bcast_S_S86x1x32x1 : S_.BroadcastsInDim S86x1x32x1 (![] : Fin 0 → Fin S86x1x32x1.rank)
  bcast_S86x1x32x1_S86x128x32x128_0_1_2_3 : S86x1x32x1.BroadcastsInDim S86x128x32x128 (![0, 1, 2, 3] : Fin 4 → Fin S86x128x32x128.rank)
  bcast_S_S86x128x32x128 : S_.BroadcastsInDim S86x128x32x128 (![] : Fin 0 → Fin S86x128x32x128.rank)
  shapeCasts_S86x128x32x128_S11008x4096 : S86x128x32x128.ShapeCasts S11008x4096
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  shapeCasts_S8192x11008_S4x2048x11008 : S8192x11008.ShapeCasts S4x2048x11008
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Body.lean ====
/-
  What one grid point of the kernel computes. The body loads a 1024-row block `a` of the dequantized
  activations, a 256-row block `b` of the dequantized weights and the matching 256 bias entries (one row), and
  stores  a · bᵀ + bias  over the whole 1024 × 256 output block: a matrix product into a zero accumulator,
  contracting the two 4096-long axes, plus the bias row broadcast over the 1024 rows. Read at `(r, c)`:

      Σ_k a[r, k] · b[c, k] + bias[0, c].
-/
import proofs.«114546_j62285615726858_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The block product's dimension numbers: both operands contract their axis 1. -/
abbrev D : DotDims S1024x4096 S256x4096 S1024x256 := dot_S1024x4096_S256x4096_S1024x256_1_1_0_0_n_n

/-- The left operand is read in the output's row … -/
theorem lhs_row (i : S1024x256.Idx) (q : D.contr.Idx) : (D.lhsIdx i q 0).val = (i 0).val := by
  unfold DotDims.lhsIdx
  rw [dif_neg (show ¬(0 : Fin S1024x4096.rank) ∈ D.lhsBatch by decide),
    dif_pos (show (0 : Fin S1024x4096.rank) ∈ D.lhsNonContracting by decide)]
  rfl
/-- … at the contracted position; -/
theorem lhs_contr (i : S1024x256.Idx) (q : D.contr.Idx) : (D.lhsIdx i q 1).val = (q ⟨0, by decide⟩).val :=
  D.lhsIdx_val_of_single rfl i q
/-- the right operand in the row numbered by the output's column … -/
theorem rhs_row (i : S1024x256.Idx) (q : D.contr.Idx) : (D.rhsIdx i q 0).val = (i 1).val := by
  unfold DotDims.rhsIdx
  rw [dif_neg (show ¬(0 : Fin S256x4096.rank) ∈ D.rhsBatch by decide),
    dif_pos (show (0 : Fin S256x4096.rank) ∈ D.rhsNonContracting by decide)]
  rfl
/-- … at the contracted position. -/
theorem rhs_contr (i : S1024x256.Idx) (q : D.contr.Idx) : (D.rhsIdx i q 1).val = (q ⟨0, by decide⟩).val :=
  D.rhsIdx_val_of_single rfl i q

/-- The block product into a zero accumulator, at `(r, c)`: row `r` of `a` against row `c` of `b`. -/
theorem product_at (a : FVec Ideal S1024x4096 .bf16) (b : FVec Ideal S256x4096 .bf16) (r : Fin 1024) (c : Fin 256) :
    matmul D none a b (constant (F := Ideal) S1024x256 .f32 0x00000000#32) (ix2 r c)
      = ∑ k : Fin 4096, a (ix2 r k) * b (ix2 c k) := by
  refine (Ideal.matmul_constant_zero_apply D none a b (ix2 r c)).trans ?_
  rw [← Equiv.sum_comp (contrEquiv1 D 4096 rfl rfl).symm]
  refine Finset.sum_congr rfl fun k _ => ?_
  have hk := contrEquiv1_symm_val D 4096 rfl rfl k
  have el : D.lhsIdx (ix2 r c) ((contrEquiv1 D 4096 rfl rfl).symm k) = ix2 r k := funext fun x => Fin.ext (by
    match x with
    | ⟨0, _⟩ => exact lhs_row _ _
    | ⟨1, _⟩ => exact (lhs_contr _ _).trans hk)
  have er : D.rhsIdx (ix2 r c) ((contrEquiv1 D 4096 rfl rfl).symm k) = ix2 c k := funext fun x => Fin.ext (by
    match x with
    | ⟨0, _⟩ => exact rhs_row _ _
    | ⟨1, _⟩ => exact (rhs_contr _ _).trans hk)
  rw [el, er]

/-- The stored block at `(r, c)`: the product entry plus the bias entry of column `c`. -/
theorem stored_at (a : FVec Ideal S1024x4096 .bf16) (b : FVec Ideal S256x4096 .bf16) (bias : FVec Ideal S1x256 .f32)
    (r : Fin 1024) (c : Fin 256) :
    k0_pay1 (F := Ideal) a b bias (ix2 r c) = (∑ k : Fin 4096, a (ix2 r k) * b (ix2 c k)) + bias (ix2 (0 : Fin 1) c) := by
  unfold k0_pay1
  rw [addf_apply, shapeCast_self, shapeCast_self, shapeCast_self, broadcastTo_1b_ab_apply]
  exact congrArg (· + bias (ix2 (0 : Fin 1) c)) (product_at a b r c)

end Cert.KernelIdeal.Body

end
-- ==== Proof.Blocks.lean ====
/-
  From the grid's blocks to the whole output array. The grid has 8 × 43 points; point `t = (p, s)` reads rows
  `1024·p …` of the dequantized activations `A`, rows `256·s …` of the dequantized weights `B` and columns
  `256·s …` of the one-row bias `β`, and writes block `(p, s)` of the output. Entry `(r, q)` of that block is
  Σ_k A[1024·p + r, k] · B[256·s + q, k] + β[0, 256·s + q]: the value at output index `(1024·p + r, 256·s + q)`
  of ONE function of the whole arrays,

      (i₀, i₁) ↦ Σ_k A[i₀, k] · B[i₁, k] + β[0, i₁].

  Every output index lies in the block of the point `(i₀ / 1024, i₁ / 256)`, so after the run the output array
  is that function. The block arithmetic is done for ARBITRARY arrays `A`, `B`, `β`; what the three arrays
  actually hold when the grid starts plays no part in it.
-/
import proofs.«114546_j62285615726858_2_alg».proof.Proof.Gen.KernelIdeal.Frame
import proofs.«114546_j62285615726858_2_alg».proof.Proof.Body
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Rows of `A` against rows of `B`, plus the bias row: the output as one function of the three arrays the
    grid reads. -/
def rowsTimesRows (A : S8192x4096.Idx → EReal) (B : S11008x4096.Idx → EReal) (β : S1x11008.Idx → EReal) :
    S8192x11008.Idx → EReal :=
  fun i => (∑ k : Fin 4096, A (ix2 (i 0) k) * B (ix2 (i 1) k)) + β (ix2 (0 : Fin 1) (i 1))

theorem rowsTimesRows_apply (A : S8192x4096.Idx → EReal) (B : S11008x4096.Idx → EReal) (β : S1x11008.Idx → EReal)
    (i : S8192x11008.Idx) :
    rowsTimesRows A B β i = (∑ k : Fin 4096, A (ix2 (i 0) k) * B (ix2 (i 1) k)) + β (ix2 (0 : Fin 1) (i 1)) := rfl

theorem zero_offsets : (![0, 0] : Fin 2 → Nat) = fun _ => 0 := funext fun a => by fin_cases a <;> rfl

/-- Where each window's block sits at a point, relative to the output's block: the activations follow the
    output's rows, the weights and the bias follow the output's columns, and nothing moves along the contracted
    axis. Point `t` is `(t / 43, t % 43)`. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = t.val / 43 ∧ win0_3.index t (1 : Fin 2) = t.val % 43 :=
  (by decide +kernel : ∀ t : Fin grid0.N, _)

/-- Row `r` of the activations' block is the array's row at the output entry's row. -/
theorem act_pos (t : Fin cfg0.N) (r : Fin 1024) (q : Fin 256) (k : Fin 4096) :
    ((cfg0.win 0).blk t).view.emb (ix2 r k) = ix2 ((((cfg0.win 3).blk t).view.emb (ix2 r q)) 0) k := by
  obtain ⟨e0, e1, -, -, -, -, -, -⟩ := block_positions t
  funext a; apply Fin.ext
  match a with
  | ⟨0, _⟩ => show win0_0.index t (0 : Fin 2) * 1024 + 1 * r.val = win0_3.index t (0 : Fin 2) * 1024 + 1 * r.val; omega
  | ⟨1, _⟩ => show win0_0.index t (1 : Fin 2) * 4096 + 1 * k.val = k.val; omega
/-- Row `q` of the weights' block is the array's row numbered by the output entry's column. -/
theorem wgt_pos (t : Fin cfg0.N) (r : Fin 1024) (q : Fin 256) (k : Fin 4096) :
    ((cfg0.win 1).blk t).view.emb (ix2 q k) = ix2 ((((cfg0.win 3).blk t).view.emb (ix2 r q)) 1) k := by
  obtain ⟨-, -, e2, e3, -, -, -, -⟩ := block_positions t
  funext a; apply Fin.ext
  match a with
  | ⟨0, _⟩ => show win0_1.index t (0 : Fin 2) * 256 + 1 * q.val = win0_3.index t (1 : Fin 2) * 256 + 1 * q.val; omega
  | ⟨1, _⟩ => show win0_1.index t (1 : Fin 2) * 4096 + 1 * k.val = k.val; omega
/-- Entry `q` of the bias block is the bias at the output entry's column. -/
theorem bias_pos (t : Fin cfg0.N) (r : Fin 1024) (q : Fin 256) :
    ((cfg0.win 2).blk t).view.emb (ix2 (0 : Fin 1) q)
      = ix2 (0 : Fin 1) ((((cfg0.win 3).blk t).view.emb (ix2 r q)) 1) := by
  obtain ⟨-, -, -, -, e4, e5, -, -⟩ := block_positions t
  funext a; apply Fin.ext
  match a with
  | ⟨0, _⟩ => show win0_2.index t (0 : Fin 2) * 1 + 1 * 0 = 0; omega
  | ⟨1, _⟩ => show win0_2.index t (1 : Fin 2) * 256 + 1 * q.val = win0_3.index t (1 : Fin 2) * 256 + 1 * q.val; omega

/-- The body's result on the three blocks of ANY arrays `A`, `B`, `β` at point `t` is block `t` of
    `rowsTimesRows A B β`. -/
theorem block_eq (A : S8192x4096.Idx → EReal) (B : S11008x4096.Idx → EReal) (β : S1x11008.Idx → EReal)
    (t : Fin cfg0.N) :
    (cfg0.win 3).cut (grid0.coords t)
        (k0_pay1 (F := Ideal) (((cfg0.win 0).blk t).view.read (Elt Ideal) A) (((cfg0.win 1).blk t).view.read (Elt Ideal) B)
          (((cfg0.win 2).blk t).view.read (Elt Ideal) β))
      = ((cfg0.win 3).blk t).view.read (Elt Ideal) (rowsTimesRows A B β) := by
  funext j
  obtain ⟨r, q, rfl⟩ : ∃ (r : Fin 1024) (q : Fin 256), j = ix2 r q := ⟨j 0, j 1, eq_ix2 j⟩
  show k0_pay1 (F := Ideal) (fun x => A (((cfg0.win 0).blk t).view.emb x)) (fun x => B (((cfg0.win 1).blk t).view.emb x))
      (fun x => β (((cfg0.win 2).blk t).view.emb x)) (ix2 r q)
    = rowsTimesRows A B β (((cfg0.win 3).blk t).view.emb (ix2 r q))
  refine (Body.stored_at _ _ _ r q).trans ?_
  rw [rowsTimesRows_apply]
  show (∑ k : Fin 4096, A (((cfg0.win 0).blk t).view.emb (ix2 r k)) * B (((cfg0.win 1).blk t).view.emb (ix2 q k)))
      + β (((cfg0.win 2).blk t).view.emb (ix2 (0 : Fin 1) q)) = _
  rw [bias_pos t r q, Finset.sum_congr rfl fun k _ => by rw [act_pos t r q k, wgt_pos t r q k]]
  rfl

variable (m : (ℓ : Loc nD τ sig) → Buf (Elt Ideal) ℓ) (ρ : Dev nD → PrngReg)

/-- What point `t` writes back is block `t` of the one whole-array function of the three arrays as the grid
    finds them. -/
theorem flushed_eq (c : Dev nD) (t : Fin cfg0.N) :
    (dats m 0 c).flushed 3 t = ((cfg0.win 3).blk t).view.read (Elt Ideal)
      (rowsTimesRows (V m c main_v17) (V m c main_v34) (V m c main_v35)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S256x4096) zero_offsets,
    View.ld_unit_zero (S := S1x256) zero_offsets]
  exact block_eq (V m c main_v17) (V m c main_v34) (V m c main_v35) t

/-- An output index is in point `t`'s block iff each coordinate is in the block's range on its axis. -/
theorem mem_block (t : Fin cfg0.N) (i : S8192x11008.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v36).slice (win0_3.rect t)).set ↔ _
  rw [View.set_slice_whole, Rect.mem_set_unit]
  exact Iff.rfl

/-- Every output index is in the block of the point `(i₀ / 1024, i₁ / 256)`, which writes back. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : cfg0.N = 344 := N_0
  let t : Fin cfg0.N := ⟨(i 0).val / 1024 * 43 + (i 1).val / 256, by rw [hN]; omega⟩
  have ht : t.val = (i 0).val / 1024 * 43 + (i 1).val / 256 := rfl
  obtain ⟨-, -, -, -, -, -, e6, e7⟩ := block_positions t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- The output array after the run is the whole-array function of the three arrays the grid reads. -/
theorem final (c : Dev nD) : (dats m 0 c).arrAt 3 cfg0.N
    = rowsTimesRows (V m c main_v17) (V m c main_v34) (V m c main_v35) :=
  (dats m 0 c).arrAt_eq_of_cover 3 _ (fun t _ => flushed_eq m c t) covered

end Cert.KernelIdeal.Blocks

end
-- ==== Proof.Dequant.lean ====
/-
  The quantize-then-dequantize preprocessing both programs apply to the activations and to the weights before
  the product, written once. A group is 128 consecutive entries of an activation row (a token), or a 128 × 128
  tile of the weights. With  amax  the largest absolute value in the group and

      scale = amax / 127  if amax > 0,  else 1,

  every entry x of the group becomes   clip(round(x / scale), −127, 127) · scale .

  This file only NAMES that function of the whole array; nothing here or later depends on what it computes,
  only on both programs applying the same one.
-/
import proofs.«114546_j62285615726858_2_alg».proof.Proof.Gen.KernelIdeal

noncomputable section

namespace Cert.KernelIdeal.Dequant

open Cert.KernelIdeal Cert.KernelIdeal.Facts₀ Idealize.ShloMosaic

variable {F : FTy → Type} [FloatOps F]

/-- Activations `[4, 2048, 4096]` → `[8192, 4096]`, each row cut into 32 groups of 128 entries. -/
def act (x : FVec F S4x2048x4096 .f32) : FVec F S8192x4096 .f32 :=
  -- the groups: [8192, 32, 128]
  let g : FVec F S8192x32x128 .f32 :=
    shapeCast _ (shapeCast _ x shapeCasts_S4x2048x4096_S8192x4096) shapeCasts_S8192x4096_S8192x32x128
  -- the largest absolute value of each group, kept as a trailing unit axis
  let amax : FVec F S8192x32x1 .f32 := broadcastInDim (s := S8192x32) S8192x32x1 ![0, 1] bcast_S8192x32_S8192x32x1_0_1
    (Host.reduce FloatOps.maximumf (Host.absf g) (constant S_ .f32 0xFF800000#32) reducesTo_S8192x32x128_S8192x32_d2 h_S_)
  -- amax / 127 where amax > 0, else 1
  let scale : FVec F S8192x32x1 .f32 :=
    select (cmpf .ogt amax (broadcastInDim (s := S_) S8192x32x1 ![] bcast_S_S8192x32x1 (constant S_ .f32 0x00000000#32)))
      (Host.divf amax (broadcastInDim (s := S_) S8192x32x1 ![] bcast_S_S8192x32x1 (constant S_ .f32 0x42FE0000#32)))
      (broadcastInDim (s := S_) S8192x32x1 ![] bcast_S_S8192x32x1 (constant S_ .f32 0x3F800000#32))
  let s : FVec F S8192x32x128 .f32 := broadcastInDim (s := S8192x32x1) S8192x32x128 ![0, 1, 2] bcast_S8192x32x1_S8192x32x128_0_1_2 scale
  -- round(x / scale) clipped to [−127, 127]
  let q : FVec F S8192x32x128 .f32 :=
    minimumf (broadcastInDim (s := S_) S8192x32x128 ![] bcast_S_S8192x32x128 (constant S_ .f32 0x42FE0000#32))
      (maximumf (broadcastInDim (s := S_) S8192x32x128 ![] bcast_S_S8192x32x128 (constant S_ .f32 0xC2FE0000#32))
        (Host.roundeven (Host.divf g s)))
  shapeCast _ (mulf q s) shapeCasts_S8192x32x128_S8192x4096

/-- Weights `[11008, 4096]` seen as 86 × 32 tiles of 128 × 128 entries. -/
def wgt (w : FVec F S11008x4096 .f32) : FVec F S11008x4096 .f32 :=
  -- the tiles: [86, 128, 32, 128]
  let g : FVec F S86x128x32x128 .f32 := shapeCast _ w shapeCasts_S11008x4096_S86x128x32x128
  -- the largest absolute value of each tile, kept as two unit axes
  let amax : FVec F S86x1x32x1 .f32 := broadcastInDim (s := S86x32) S86x1x32x1 ![0, 2] bcast_S86x32_S86x1x32x1_0_2
    (Host.reduce FloatOps.maximumf (Host.absf g) (constant S_ .f32 0xFF800000#32) reducesTo_S86x128x32x128_S86x32_d1_3 h_S_)
  let scale : FVec F S86x1x32x1 .f32 :=
    select (cmpf .ogt amax (broadcastInDim (s := S_) S86x1x32x1 ![] bcast_S_S86x1x32x1 (constant S_ .f32 0x00000000#32)))
      (Host.divf amax (broadcastInDim (s := S_) S86x1x32x1 ![] bcast_S_S86x1x32x1 (constant S_ .f32 0x42FE0000#32)))
      (broadcastInDim (s := S_) S86x1x32x1 ![] bcast_S_S86x1x32x1 (constant S_ .f32 0x3F800000#32))
  let s : FVec F S86x128x32x128 .f32 :=
    broadcastInDim (s := S86x1x32x1) S86x128x32x128 ![0, 1, 2, 3] bcast_S86x1x32x1_S86x128x32x128_0_1_2_3 scale
  let q : FVec F S86x128x32x128 .f32 :=
    minimumf (broadcastInDim (s := S_) S86x128x32x128 ![] bcast_S_S86x128x32x128 (constant S_ .f32 0x42FE0000#32))
      (maximumf (broadcastInDim (s := S_) S86x128x32x128 ![] bcast_S_S86x128x32x128 (constant S_ .f32 0xC2FE0000#32))
        (Host.roundeven (Host.divf g s)))
  shapeCast _ (mulf q s) shapeCasts_S86x128x32x128_S11008x4096

end Cert.KernelIdeal.Dequant

end
-- ==== Proof.Entry.lean ====
/-
  What the grid finds in its three input arrays. Before the grid starts, the program has already quantized and
  dequantized the activations and the weights (and rounded each to a narrower float format, which changes
  nothing over the extended reals) and laid the bias out as one row. So the grid reads

      the activations' array  =  the dequantization of the first argument   (rounded),
      the weights' array      =  the dequantization of the second argument  (rounded),
      the bias row            =  the third argument, reshaped to [1, 11008].

  Stated for any float instance: the equations are about which operations were applied, not about their values.
-/
import proofs.«114546_j62285615726858_2_alg».proof.Proof.Gen.KernelIdeal.Frame
import proofs.«114546_j62285615726858_2_alg».proof.Proof.Dequant
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 25600000 in
/-- The activations' array at the grid's start. -/
theorem act_entry (c : Dev nD) :
    V (F := F) m c main_v17
      = truncf .bf16 (Dequant.act (F := F) (m ((c : Thread nD τ).loc main_arg0))) Facts₀.bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 25600000 in
/-- The weights' array at the grid's start. -/
theorem wgt_entry (c : Dev nD) :
    V (F := F) m c main_v34
      = truncf .bf16 (Dequant.wgt (F := F) (m ((c : Thread nD τ).loc main_arg1))) Facts₀.bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 25600000 in
/-- The bias row at the grid's start. -/
theorem bias_entry (c : Dev nD) :
    V (F := F) m c main_v35
      = shapeCast S1x11008 (m ((c : Thread nD τ).loc main_arg2)) Facts₀.shapeCasts_S11008_S1x11008 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

end Cert.KernelIdeal.Entry

end
-- ==== Proof.Linear.lean ====
/-
  The linear layer that both programs apply once the activations and the weights have been quantized and
  dequantized: over the extended reals

      y[t, o] = Σ_k X[t, k] · W[o, k] + b[o],      t < 8192, o < 11008, k < 4096.

  The sum is a sum in the commutative monoid of extended reals, so neither the order of its terms nor the way
  a program tiles the output matters, and no finiteness of the entries is used.
-/
import Idealize.ShloMosaic.PureOps.Ideal
import Idealize.ShloMosaic.Lib.ValueIdx

noncomputable section

namespace Cert.Linear

open Idealize.ShloMosaic Idealize.ShloMosaic.ValueIdx
open scoped BigOperators

/-- Dequantized activations, one row per token. -/
abbrev Act : Shape := ⟨2, ![8192, 4096]⟩
/-- Dequantized weights, one row per output feature. -/
abbrev Wgt : Shape := ⟨2, ![11008, 4096]⟩
/-- The bias, one entry per output feature. -/
abbrev Bias : Shape := ⟨1, ![11008]⟩
/-- The result, tokens by output features. -/
abbrev Out : Shape := ⟨2, ![8192, 11008]⟩

/-- Entry `(t, o)` of the layer: row `t` of `X` against row `o` of `W`, plus `b[o]`. -/
def linearAt (X : Act.Idx → EReal) (W : Wgt.Idx → EReal) (b : Bias.Idx → EReal) (t : Fin 8192) (o : Fin 11008) : EReal :=
  (∑ k : Fin 4096, X (ix2 t k) * W (ix2 o k)) + b (ix1 o)

/-- The layer as one function of the whole arrays. -/
def linear (X : Act.Idx → EReal) (W : Wgt.Idx → EReal) (b : Bias.Idx → EReal) : Out.Idx → EReal :=
  fun i => linearAt X W b (i 0) (i 1)

end Cert.Linear

end
-- ==== Proof.Whole.lean ====
/-
  The kernel program as a whole: dequantize on the host, run the grid, reshape. After the grid the output array
  is  (i₀, i₁) ↦ Σ_k A[i₀, k] · B[i₁, k] + β[0, i₁]  of the three arrays the grid found; those are the
  dequantized activations, the dequantized weights (both rounded to a narrower format, the identity over the
  extended reals) and the bias laid out as one row, so that `β[0, o] = bias[o]`. Hence the output array is the
  linear layer of the dequantized arguments, and the program's result is its reshape to [4, 2048, 11008].
-/
import proofs.«114546_j62285615726858_2_alg».proof.Proof.Blocks
import proofs.«114546_j62285615726858_2_alg».proof.Proof.Entry
import proofs.«114546_j62285615726858_2_alg».proof.Proof.Linear
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open scoped BigOperators

section AnyInstance

variable {F : FTy → Type} [FloatOps F]
variable (m : (ℓ : Loc nD τ sig) → Buf (Elt F) ℓ)

/-- The program's result is the reshape of the grid's output array: the one host operation after the grid. -/
theorem result_is_reshape (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v37)
      = shapeCast S4x2048x11008 ((dats m 0 c).arrAt 3 cfg0.N) Facts₀.shapeCasts_S8192x11008_S4x2048x11008 := by
  refine ((h c).2 main_v37 (Pipeline.mem_restRefs_of main_v37 (by decide) (by decide))).trans ?_
  unfold Pipeline.afterTail₀
  show StableHlo.after hostOps1 _ (Proc.devRef .tc main_v37) = _
  after_results
  have hw : Pipeline.withArrays (cfgs 0).spec c (V0 m c) (fun w => (dats m 0 c).arrAt w (cfgs 0).N)
      (Proc.devRef .tc main_v36) = (dats m 0 c).arrAt 3 cfg0.N :=
    Pipeline.withArrays_arr spec0 launch0.win.arr_inj c _ _ 3
  rw [hw]
  rfl

end AnyInstance

variable (m : (ℓ : Loc nD τ sig) → Buf (Elt Ideal) ℓ) (ρ : Dev nD → PrngReg)

/-- Over the extended reals, rounding to a narrower float format changes nothing. -/
theorem round_id {s : Shape} (v : FVec Ideal s .f32) (h : FTy.bf16.bits < FTy.f32.bits) :
    truncf (F := Ideal) .bf16 v h = v := rfl

/-- The bias laid out as one row, read at `(0, o)`, is the bias at `o`. -/
theorem bias_row (b : FVec Ideal S11008 .f32) (h : S11008.ShapeCasts S1x11008) (o : Fin 11008) :
    shapeCast S1x11008 b h (ix2 (0 : Fin 1) o) = b (ix1 o) :=
  shapeCast_apply b h (ix2 (0 : Fin 1) o) (ix1 o) (by
    rw [Shape.rowMajor_val_one, Shape.rowMajor_val_two]
    show o.val = 0 * 11008 + o.val
    omega)

/-- The grid's output array is the linear layer of the dequantized arguments. -/
theorem grid_output (c : Dev nD) :
    Blocks.rowsTimesRows (V m c main_v17) (V m c main_v34) (V m c main_v35)
      = Cert.Linear.linear (Dequant.act (F := Ideal) (m ((c : Thread nD τ).loc main_arg0)))
          (Dequant.wgt (F := Ideal) (m ((c : Thread nD τ).loc main_arg1))) (m ((c : Thread nD τ).loc main_arg2)) := by
  rw [Entry.act_entry, Entry.wgt_entry, Entry.bias_entry, round_id, round_id]
  funext i
  rw [Blocks.rowsTimesRows_apply]
  exact congrArg (_ + ·) (bias_row _ _ (i 1))

/-- The program's result: the linear layer of the dequantized arguments, as [4, 2048, 11008]. -/
def result (c : Dev nD) : S4x2048x11008.Idx → EReal :=
  shapeCast S4x2048x11008
    (Cert.Linear.linear (Dequant.act (F := Ideal) (m ((c : Thread nD τ).loc main_arg0)))
      (Dequant.wgt (F := Ideal) (m ((c : Thread nD τ).loc main_arg1))) (m ((c : Thread nD τ).loc main_arg2)))
    Facts₀.shapeCasts_S8192x11008_S4x2048x11008

/-- Every weakly fair execution of the kernel program terminates with its result at `result` and its
    arguments unchanged. -/
theorem run : θ_run defs (onTc (τ := τ) (main (F := Ideal))) ⟨m, fun _ => 0, ρ⟩ fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(result_is_reshape m r h c).trans (by rw [Blocks.final, grid_output]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefLinear.lean ====
/-
  The reference after its two dequantizations: a contraction of the dequantized activations `A` with the
  dequantized weights `B` over their common axis, plus the bias broadcast first to one row and then over all
  rows. Read at an index `(t, o)` this is  Σ_k A[t, k] · B[o, k] + bias[o]  — the linear layer. The two
  dequantizations themselves are never opened: they enter only as the arrays `A` and `B`.
-/
import proofs.«114546_j62285615726858_2_alg».proof.Proof.Gen.ReferenceIdeal.Read
import proofs.«114546_j62285615726858_2_alg».proof.Proof.Linear

noncomputable section

namespace Cert.ReferenceIdeal.RefLinear

open Cert.ReferenceIdeal Cert.ReferenceIdeal.Read Idealize.ShloMosaic Idealize.ShloMosaic.ValueIdx Cert.Linear
open scoped BigOperators

/-- The reference's sum-plus-bias stage is the linear layer of its dequantized activations and weights. -/
theorem sum_bias_eq_linear (x : (⟨S4x2048x4096, .f32⟩ : BufTy).Contents (Elt Ideal))
    (w : (⟨S11008x4096, .f32⟩ : BufTy).Contents (Elt Ideal)) (b : (⟨S11008, .f32⟩ : BufTy).Contents (Elt Ideal)) :
    val_main_v36 (F := Ideal) x w b = linear (val_main_v16 (F := Ideal) x) (val_main_v32 (F := Ideal) w) b := by
  funext i
  -- the contraction reads row `i 0` of the activations and row `i 1` of the weights
  have el : ∀ k : Fin 4096, lidx_main_v33 i k = ix2 (i 0) k := fun k => funext fun a => by
    match a with | ⟨0, _⟩ => rfl | ⟨1, _⟩ => rfl
  have er : ∀ k : Fin 4096, ridx_main_v33 i k = ix2 (i 1) k := fun k => funext fun a => by
    match a with | ⟨0, _⟩ => rfl | ⟨1, _⟩ => rfl
  -- the twice-broadcast bias reads entry `i 1`
  have eb : idx_main_v34 (idx_main_v35 i) = ix1 (i 1) := funext fun a => by
    match a with | ⟨0, _⟩ => rfl
  rw [val_main_v36_apply, val_main_v33_apply, val_main_v35_apply, val_main_v34_apply, Ideal.addf_def, eb,
    Finset.sum_congr rfl fun k _ => by rw [el k, er k]]
  rfl

end Cert.ReferenceIdeal.RefLinear

end
-- ==== Proof.RefDequant.lean ====
/-
  The reference's preprocessing is the kernel program's: its stage for the dequantized activations and its stage
  for the dequantized weights are, operation for operation and constant for constant, the two functions named
  once for the kernel program (the reference merely omits the rounding to a narrower format).
-/
import proofs.«114546_j62285615726858_2_alg».proof.Proof.Gen.ReferenceIdeal.Read
import proofs.«114546_j62285615726858_2_alg».proof.Proof.Dequant

noncomputable section

namespace Cert.ReferenceIdeal.RefDequant

open Idealize.ShloMosaic

/-- The reference's dequantized activations. -/
theorem act_eq (x : FVec Ideal Cert.KernelIdeal.S4x2048x4096 .f32) :
    Cert.ReferenceIdeal.Read.val_main_v16 (F := Ideal) x = Cert.KernelIdeal.Dequant.act (F := Ideal) x := rfl

/-- The reference's dequantized weights. -/
theorem wgt_eq (w : FVec Ideal Cert.KernelIdeal.S11008x4096 .f32) :
    Cert.ReferenceIdeal.Read.val_main_v32 (F := Ideal) w = Cert.KernelIdeal.Dequant.wgt (F := Ideal) w := rfl

end Cert.ReferenceIdeal.RefDequant

end
-- ==== Proof.lean ====
/-
  A linear layer with quantized operands: the activations (per token, per group of 128 entries) and the weights
  (per 128 × 128 tile) are quantized to 127 levels and dequantized, and then

      y[t, o] = Σ_k A[t, k] · B[o, k] + bias[o]

  for the dequantized activations `A` and weights `B`; the result is reshaped to [4, 2048, 11008].

  The kernel program and the reference apply the SAME quantize-dequantize operations, with the same constants,
  so that part is carried as two functions of the arguments that are never opened. The kernel program then rounds
  `A` and `B` to a narrower float format — the identity over the extended reals —, lays the bias out as one row,
  and computes `y` on an 8 × 43 grid, each point a 1024 × 256 block: a product of a 1024-row block of `A` with a
  256-row block of `B` into a zero accumulator, plus the bias row broadcast over the rows. The reference computes
  `y` as one contraction plus the bias broadcast twice. Entry by entry both are the sum above, a sum in the
  commutative monoid of extended reals: the tiling and the order of the terms do not matter, and no finiteness of
  the inputs is used.

  The three frames: the two kernel programs' are their generated frame runs; the reference's is its generated run
  with the result dropped. The idealization rewrote nothing, so `preserves` is trivial.
-/
import proofs.«114546_j62285615726858_2_alg».proof.Defs
import proofs.«114546_j62285615726858_2_alg».proof.Proof.Gen.Kernel
import proofs.«114546_j62285615726858_2_alg».proof.Proof.Gen.Kernel.Skeleton
import proofs.«114546_j62285615726858_2_alg».proof.Proof.Gen.Kernel.Launch
import proofs.«114546_j62285615726858_2_alg».proof.Proof.Gen.Kernel.Points
import proofs.«114546_j62285615726858_2_alg».proof.Proof.Gen.Kernel.Frame
import proofs.«114546_j62285615726858_2_alg».proof.Proof.Gen.KernelIdeal
import proofs.«114546_j62285615726858_2_alg».proof.Proof.Gen.KernelIdeal.Skeleton
import proofs.«114546_j62285615726858_2_alg».proof.Proof.Gen.KernelIdeal.Launch
import proofs.«114546_j62285615726858_2_alg».proof.Proof.Gen.KernelIdeal.Points
import proofs.«114546_j62285615726858_2_alg».proof.Proof.Gen.KernelIdeal.Frame
import proofs.«114546_j62285615726858_2_alg».proof.Proof.Gen.ReferenceIdeal
import proofs.«114546_j62285615726858_2_alg».proof.Proof.Gen.Pre_finite_inputs
import proofs.«114546_j62285615726858_2_alg».proof.Proof.Gen.ReferenceIdeal.Run
import proofs.«114546_j62285615726858_2_alg».proof.Proof.Gen.ReferenceIdeal.Read
import proofs.«114546_j62285615726858_2_alg».proof.Proof.Whole
import proofs.«114546_j62285615726858_2_alg».proof.Proof.RefLinear
import proofs.«114546_j62285615726858_2_alg».proof.Proof.RefDequant
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the linear layer of the same dequantized arguments, reshaped. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2]
  unfold Cert.ReferenceIdeal.Read.val_main_v37 Cert.KernelIdeal.Whole.result
  rw [Cert.ReferenceIdeal.RefLinear.sum_bias_eq_linear, Cert.ReferenceIdeal.RefDequant.act_eq,
    Cert.ReferenceIdeal.RefDequant.wgt_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
